-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S4096x100 : Shape := ⟨2, ![4096, 100]⟩
abbrev S512x4096 : Shape := ⟨2, ![512, 4096]⟩
abbrev S512x100 : Shape := ⟨2, ![512, 100]⟩
abbrev S512 : Shape := ⟨1, ![512]⟩
abbrev S512x1 : Shape := ⟨2, ![512, 1]⟩

abbrev nBuf : Space → Nat
  | .hbm => 2
  | .vmem => 5
  | .smem => 0
  | _ => 0

abbrev bufTy : (tb : Table) → Fin (tcTables nBuf tb) → BufTy
  | .hbm, ⟨0, _⟩ => ⟨S4096x16384, .f32⟩
  | .hbm, ⟨1, _⟩ => ⟨S4096x100, .f32⟩
  | .local _ .vmem, ⟨0, _⟩ => ⟨S512x4096, .f32⟩
  | .local _ .vmem, ⟨1, _⟩ => ⟨S512x4096, .f32⟩
  | .local _ .vmem, ⟨2, _⟩ => ⟨S512x100, .f32⟩
  | .local _ .vmem, ⟨3, _⟩ => ⟨S512x100, .f32⟩
  | .local _ .vmem, ⟨4, _⟩ => ⟨S512x100, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32_112 : BitVec 32 := 3#32
  let v628 : BitVec 1 := Scalar.cmpi .eq arg1 c3_i32_112
  let v629 : BitVec 32 := Scalar.extui v628
  let c0_i32_113 : BitVec 32 := 0#32
  let v630 : BitVec 1 := Scalar.cmpi .ne v629 c0_i32_113
  v630

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x100_S512x100_0_0 : ∀ a, (![0, 0] : Fin 2 → Nat) a + S512x100.size a ≤ S512x100.size a
  h_S512x100 : 0 < S512x100.numel
  shapeCasts_S512x100_S512x100 : S512x100.ShapeCasts S512x100
  inb_S512x4096_S512x4096_0_0 : ∀ a, (![0, 0] : Fin 2 → Nat) a + S512x4096.size a ≤ S512x4096.size a
  h_S512x4096 : 0 < S512x4096.numel
  natLt_1_32 : 1 < 32
  reduces_S512x4096_S512 : S512x4096.Reduces [1] S512
  shapeCasts_S512_S512x1 : S512.ShapeCasts S512x1
  concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x100_d1 : Shape.Concatenates (S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: []) S512x100 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x16384.size a
  hwx0_0 : ∀ i : grid0.Coords, EltTy.bits .f32 = 32 ∨ (Rect.block (s := S4096x16384) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x100.size a ≤ S4096x100.size a
  hwx0_1 : ∀ i : grid0.Coords, EltTy.bits .f32 = 32 ∨ (Rect.block (s := S4096x100) S512x100.size (cc0_transform_1 i) (hinb0_1 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x100.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x16384 : Shape := ⟨2, ![4096, 16384]⟩
abbrev S_ : Shape := ⟨0, ![]⟩
abbrev S4096 : Shape := ⟨1, ![4096]⟩
abbrev S4096x1 : Shape := ⟨2, ![4096, 1]⟩
abbrev S67108864 : Shape := ⟨1, ![67108864]⟩
abbrev S409600 : Shape := ⟨1, ![409600]⟩
abbrev S67108864x1 : Shape := ⟨2, ![67108864, 1]⟩
abbrev S4096x100 : Shape := ⟨2, ![4096, 100]⟩

abbrev nBuf : Space → Nat
  | .hbm => 45
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S4096x16384, .i32⟩
  | .hbm, ⟨6, _⟩ => ⟨S4096x16384, .i32⟩
  | .hbm, ⟨7, _⟩ => ⟨S_, .i32⟩
  | .hbm, ⟨8, _⟩ => ⟨S4096x16384, .i32⟩
  | .hbm, ⟨9, _⟩ => ⟨S4096x16384, .i32⟩
  | .hbm, ⟨10, _⟩ => ⟨S4096x16384, .f32⟩
  | .hbm, ⟨11, _⟩ => ⟨S_, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S_, .f32⟩
  | .hbm, ⟨18, _⟩ => ⟨S4096x16384, .f32⟩
  | .hbm, ⟨19, _⟩ => ⟨S4096x16384, .f32⟩
  | .hbm, ⟨20, _⟩ => ⟨S4096x16384, .f32⟩
  | .hbm, ⟨21, _⟩ => ⟨S4096x16384, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4096x16384, .i32⟩
  | .hbm, ⟨26, _⟩ => ⟨S4096x16384, .i32⟩
  | .hbm, ⟨27, _⟩ => ⟨S_, .i32⟩
  | .hbm, ⟨28, _⟩ => ⟨S4096x16384, .i32⟩
  | .hbm, ⟨29, _⟩ => ⟨S4096x16384, .i32⟩
  | .hbm, ⟨30, _⟩ => ⟨S4096, .i32⟩
  | .hbm, ⟨31, _⟩ => ⟨S4096x1, .i32⟩
  | .hbm, ⟨32, _⟩ => ⟨S_, .i32⟩
  | .hbm, ⟨33, _⟩ => ⟨S4096x1, .i32⟩
  | .hbm, ⟨34, _⟩ => ⟨S4096x1, .i32⟩
  | .hbm, ⟨35, _⟩ => ⟨S4096x16384, .i32⟩
  | .hbm, ⟨36, _⟩ => ⟨S4096x16384, .i32⟩
  | .hbm, ⟨37, _⟩ => ⟨S67108864, .i32⟩
  | .hbm, ⟨38, _⟩ => ⟨S_, .f32⟩
  | .hbm, ⟨39, _⟩ => ⟨S67108864, .f32⟩
  | .hbm, ⟨40, _⟩ => ⟨S_, .f32⟩
  | .hbm, ⟨41, _⟩ => ⟨S409600, .f32⟩
  | .hbm, ⟨42, _⟩ => ⟨S67108864x1, .i32⟩
  | .hbm, ⟨43, _⟩ => ⟨S409600, .f32⟩
  | .hbm, ⟨44, _⟩ => ⟨S4096x100, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_c_4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_cst_7 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  shapeCasts_S4096x16384_S67108864 : S4096x16384.ShapeCasts S67108864
  bcast_S_S67108864 : S_.BroadcastsInDim S67108864 (![] : Fin 0 → Fin S67108864.rank)
  bcast_S_S409600 : S_.BroadcastsInDim S409600 (![] : Fin 0 → Fin S409600.rank)
  bcast_S67108864_S67108864x1_0 : S67108864.BroadcastsInDim S67108864x1 (![0] : Fin 1 → Fin S67108864x1.rank)
  shapeCasts_S409600_S4096x100 : S409600.ShapeCasts S4096x100
  scatter_S409600_S67108864x1_S67108864_n_0_0_1_wf : ScatterDims.WF S409600 S67108864x1 S67108864 [] [0] [0] 1

variable [Facts₀]

def scatter_S409600_S67108864x1_S67108864_n_0_0_1 : ScatterDims S409600 S67108864x1 S67108864 where
  updateWindowDims := []
  insertedWindowDims := [0]
  scatterDimsToOperandDims := [0]
  indexVectorDim := 1
  wf := scatter_S409600_S67108864x1_S67108864_n_0_0_1_wf

class Facts : Prop extends Facts₀ where

variable [Facts]
-- ==== Proof.HistSpec.lean ====
/-
  The per-row histogram as one function of the input array.

  Every entry x of the input is sent to a bin word bin x: x is truncated to a signed 32-bit integer and
  clamped into [0, 256], the clamped integer c is scaled to floor (100 · (c − 0) / 256), truncated to an
  integer again and clamped into [0, 99]. Entry (R, b) of the histogram counts the entries of row R whose
  bin word is b: the sum over the row's 16384 columns C of 1 where bin (x (R, C)) = b and of 0 elsewhere.
  Each term is the real number 0 or 1, so the sums below are sums of finite numbers on the extended reals
  and may be regrouped freely.
-/
import Idealize.ShloMosaic.PureOps.Ideal
import Idealize.ShloMosaic.Lib.ValueIdx

noncomputable section

open scoped BigOperators

namespace Cert.Hist

open Idealize.ShloMosaic Idealize.ShloMosaic.ValueIdx

/-- The bin word of one input value, the operations in the order both programs apply them. -/
def bin (x : EReal) : BitVec 32 :=
  IntOp.minsi 99#32 (IntOp.maxsi 0#32 (FloatOps.fptosi (F := Ideal) 32 (FloatOps.floor (F := Ideal) (φ := .f32)
    (FloatOps.divf (F := Ideal) (φ := .f32)
      (FloatOps.mulf (F := Ideal) (φ := .f32) (Ideal.ofBits .f32 0x42C80000#32)
        (FloatOps.subf (F := Ideal) (φ := .f32)
          (FloatOps.sitofp (F := Ideal) .f32 (IntOp.minsi 256#32 (IntOp.maxsi 0#32 (FloatOps.fptosi (F := Ideal) (φ := .f32) 32 x))))
          (Ideal.ofBits .f32 0x00000000#32)))
      (Ideal.ofBits .f32 0x43800000#32)))))

/-- One entry's contribution to bin k: 1 when its bin word is k, 0 otherwise. -/
def hit (w k : BitVec 32) : EReal := if w = k then 1 else 0

/-- The histogram: entry (R, b) is the number of columns C of row R with bin word b. -/
def G (x : (⟨2, ![4096, 16384]⟩ : Shape).Idx → EReal) : (⟨2, ![4096, 100]⟩ : Shape).Idx → EReal :=
  fun i => ∑ C : Fin 16384, hit (bin (x (ix2 (i 0) C))) (BitVec.ofNat 32 (i 1).val)

theorem G_apply (x : (⟨2, ![4096, 16384]⟩ : Shape).Idx → EReal) (R : Fin 4096) (b : Fin 100) :
    G x (ix2 R b) = ∑ C : Fin 16384, hit (bin (x (ix2 R C))) (BitVec.ofNat 32 b.val) := rfl

/-- The float word of 1 is the number 1. -/
theorem one_word : Ideal.ofBits .f32 0x3F800000#32 = (1 : EReal) := by
  simp [Ideal.ofBits, Ideal.ieee, -EReal.coe_mul]; norm_num

/-- The float word of 0 is the number 0. -/
theorem zero_word : Ideal.ofBits .f32 0x00000000#32 = (0 : EReal) := by simp [Ideal.ofBits, Ideal.ieee]

/-- A comparison bit widened to a word and read as a signed integer, as a number: 1 where the words are
    equal, 0 where they differ. -/
theorem hit_eq (w k : BitVec 32) :
    (((((IntOp.cmpi .eq w k).setWidth 32).toInt : Int) : ℝ) : EReal) = hit w k := by
  unfold hit IntOp.cmpi
  by_cases h : w = k
  · subst h; simp
  · have : (w == k) = false := by simpa using h
    simp [this, h]

/-- A bin word lies in [0, 99] read as a signed integer. -/
theorem clamp_range (z : BitVec 32) :
    0 ≤ (IntOp.minsi 99#32 (IntOp.maxsi 0#32 z)).toInt ∧ (IntOp.minsi 99#32 (IntOp.maxsi 0#32 z)).toInt ≤ 99 := by
  unfold IntOp.minsi IntOp.maxsi
  simp only [BitVec.slt]
  have h99 : (99#32 : BitVec 32).toInt = 99 := by decide
  have h0 : (0#32 : BitVec 32).toInt = 0 := by decide
  split <;> split <;> simp_all <;> omega

theorem bin_range (x : EReal) : 0 ≤ (bin x).toInt ∧ (bin x).toInt ≤ 99 := clamp_range _

end Cert.Hist

end
-- ==== Proof.LibScatterFlat.lean ====
/-
  Scattering scalars into a vector with an add body, read at one element.

  A scatter-add whose every update is one number carrying one index (the segment sum of a flat
  array: operand [N], indices [E, 1], updates [E]) gives, at element n of the operand, the operand's
  element plus the sum of the updates e whose index word, read as a signed integer, equals n. An
  update whose index is negative or at least N lands outside the operand and contributes nothing.
-/
import Idealize.ShloMosaic.Lib.ValueIdx
import Idealize.ShloMosaic.PureOps.Ideal

noncomputable section

open scoped BigOperators

namespace HistLib

open Idealize.ShloMosaic Idealize.ShloMosaic.ValueIdx

/-- The dimension numbers of a scalar scatter into an operand [N]: no update window axis, inserted
    window axis 0, the one index component addressing operand axis 0, index vectors along axis 1. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)

/-- The window of update e starts at the index word of e, read signed. -/
theorem flat_start0 (e : Fin E) (idx : IVec ⟨2, ![E, 1]⟩ w) :
    (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand has no axis that is not inserted. -/
theorem flat_sKept : (flatScatterDims N E wf).sKept = [] := rfl

/-- On the operand's one axis, the inserted one, the window coordinate is 0. -/
theorem flat_window0 (j : (⟨1, ![E]⟩ : Shape).Idx) :
    (flatScatterDims N E wf).window j 0 = 0 := by
  unfold ScatterDims.window
  rw [dif_neg (show ¬ (0 : Fin 1) ∈ (flatScatterDims N E wf).sKept from
    fun h => absurd ((flat_sKept wf) ▸ h) (List.not_mem_nil))]

/-- Update e lands on operand element n exactly when its index word, read signed, is n. -/
theorem flat_resultIdx_iff (e : Fin E) (idx : IVec ⟨2, ![E, 1]⟩ w) (n : Fin N) :
    (flatScatterDims N E wf).resultIdx? (ix1 e) idx = some (ix1 n)
      ↔ (idx (ix2 e (0 : Fin 1))).toInt = (n.val : Int) := by
  have h0 : (flatScatterDims N E wf).start (ix1 e) idx 0 + ((flatScatterDims N E wf).window (ix1 e) 0 : Int)
      = (idx (ix2 e (0 : Fin 1))).toInt := by
    rw [flat_start0, flat_window0]; simp
  unfold ScatterDims.resultIdx?
  constructor
  · intro h
    split at h
    · rename_i hin
      have hf := Option.some.inj h
      have e0 := congrArg (fun f => (f 0).val) hf
      simp only at e0
      have hin0 := hin 0
      rw [h0] at e0 hin0
      have : ((idx (ix2 e (0 : Fin 1))).toInt.toNat : Int) = (n.val : Int) := by exact_mod_cast e0
      omega
    · exact absurd h (by simp)
  · intro hn
    have hin : ∀ a, 0 ≤ (flatScatterDims N E wf).start (ix1 e) idx a + (flatScatterDims N E wf).window (ix1 e) a ∧
        (flatScatterDims N E wf).start (ix1 e) idx a + (flatScatterDims N E wf).window (ix1 e) a
          < (⟨1, ![N]⟩ : Shape).size a := by
      intro a
      match a with
      | ⟨0, _⟩ =>
        show 0 ≤ (flatScatterDims N E wf).start (ix1 e) idx 0 + ((flatScatterDims N E wf).window (ix1 e) 0 : Int) ∧
          (flatScatterDims N E wf).start (ix1 e) idx 0 + ((flatScatterDims N E wf).window (ix1 e) 0 : Int) < ((N : Nat) : Int)
        have := n.isLt
        rw [h0, hn]; omega
    rw [dif_pos hin]
    congr 1
    funext a
    refine Fin.ext ?_
    match a with
    | ⟨0, _⟩ =>
      show ((flatScatterDims N E wf).start (ix1 e) idx 0 + ((flatScatterDims N E wf).window (ix1 e) 0 : Int)).toNat = n.val
      rw [h0, hn]; simp

/-- SCATTER-ADD OF SCALARS READ AT n, operand [N]: the operand's element plus the sum of the updates e whose
    index word read signed is n. -/
theorem scatterAdd_flat (x : (⟨1, ![N]⟩ : Shape).Idx → EReal) (idx : IVec ⟨2, ![E, 1]⟩ w)
    (upd : (⟨1, ![E]⟩ : Shape).Idx → EReal) (n : Fin N) :
    Ideal.hostScatterAdd (flatScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_nbij' (fun j : (⟨1, ![E]⟩ : Shape).Idx => (j 0 : Fin E))
    (fun e : Fin E => (ix1 e : (⟨1, ![E]⟩ : Shape).Idx)) ?_ ?_ ?_ ?_ ?_
  · intro j hj
    obtain ⟨a, rfl⟩ : ∃ (a : Fin E), j = ix1 a := ⟨j 0, eq_ix1 j⟩
    exact Finset.mem_filter.2 ⟨Finset.mem_univ _,
      (flat_resultIdx_iff wf a idx n).1 (Finset.mem_filter.1 hj).2⟩
  · intro e he
    exact Finset.mem_filter.2 ⟨Finset.mem_univ _,
      (flat_resultIdx_iff wf e idx n).2 (Finset.mem_filter.1 he).2⟩
  · intro j _
    exact (eq_ix1 j).symm
  · intro e _
    rfl
  · intro j _
    exact congrArg upd (eq_ix1 j)

/-- The same with a zero operand element and updates that are all 1: segment n counts the updates whose index word,
    read signed, is n. -/
theorem scatterAdd_flat_ones (x : (⟨1, ![N]⟩ : Shape).Idx → EReal) (idx : IVec ⟨2, ![E, 1]⟩ w)
    (upd : (⟨1, ![E]⟩ : Shape).Idx → EReal) (n : Fin N) (hx : x (ix1 n) = 0) (hu : ∀ e : Fin E, upd (ix1 e) = 1) :
    Ideal.hostScatterAdd (flatScatterDims N E wf) x idx upd (ix1 n)
      = ∑ e : Fin E, if (idx (ix2 e (0 : Fin 1))).toInt = (n.val : Int) then (1 : EReal) else 0 := by
  rw [scatterAdd_flat, hx, zero_add, Finset.sum_filter]
  exact Finset.sum_congr rfl fun e _ => by rw [hu]

end Flat

end HistLib

end
-- ==== Proof.LibBlockSum.lean ====
/-
  A sum over `a · b` positions cut into `a` consecutive blocks of `b`.

  The positions `0 … a·b − 1` are the pairs (block `k`, entry `j` of the block) at `b · k + j`; a sum over all positions is
  the sum over the blocks of the sums inside each block. Stated in any commutative additive monoid: only
  commutativity and associativity of `+` are used, so it holds on the extended reals with no finiteness assumption.
  This is the law by which a contraction accumulated block by block equals the whole contraction.
-/
import Mathlib

namespace Cert.LibBlockSum

/-- The position of entry `j` of block `k`, among `a` consecutive blocks of `b` positions each. -/
def pos {a b : ℕ} (k : Fin a) (j : Fin b) : Fin (a * b) := finProdFinEquiv (k, j)

/-- It is `b · k + j` (written `j + b · k`). -/
theorem pos_val {a b : ℕ} (k : Fin a) (j : Fin b) : (pos k j).val = j.val + b * k.val := rfl

/-- A sum over `Fin (a * b)` is the sum over the `a` blocks `k` of the sums over each block's `b` entries. -/
theorem sum_blocks {M : Type*} [AddCommMonoid M] {a b : ℕ} (f : Fin (a * b) → M) :
    ∑ h : Fin (a * b), f h = ∑ k : Fin a, ∑ j : Fin b, f (pos k j) :=
  (Fintype.sum_equiv finProdFinEquiv (fun p : Fin a × Fin b => f (pos p.1 p.2)) f (fun _ => rfl)).symm.trans
    (Fintype.sum_prod_type _)

end Cert.LibBlockSum
-- ==== Proof.RefWords.lean ====
/-
  The reference's segment words.

  The reference flattens the array of bin words to one vector of 4096 · 16384 entries, entry e = 16384 · R' + C
  carrying the segment word 100 · R' + bin (x (R', C)). A bin word lies in [0, 99], so the segment word, read as a
  signed integer, is 100 · R + b exactly when R' = R and the bin word is b. A sum over the flat entries is the sum
  over the rows R' of the sums over the columns C.
-/
import proofs.«119066_j21311627723520_1_alg».proof.Proof.RefReadP
import proofs.«119066_j21311627723520_1_alg».proof.Proof.HistSpec
import proofs.«119066_j21311627723520_1_alg».proof.Proof.LibScatterFlat
import proofs.«119066_j21311627723520_1_alg».proof.Proof.LibBlockSum

set_option maxRecDepth 16384

noncomputable section

open scoped BigOperators

namespace Cert.ReferenceIdeal.RefWords

open Cert.ReferenceIdeal Cert.ReferenceIdeal.Gen Cert.ReferenceIdeal.ReadP
open Idealize.ShloMosaic Idealize.ShloMosaic.ValueIdx

/-- The reference's array of bin words holds, at an entry, that entry's bin word. -/
theorem binWord_apply (x0 : (⟨S4096x16384, .f32⟩ : BufTy).Contents (Elt Ideal)) (j : S4096x16384.Idx) :
    val_main_v11 (F := Ideal) x0 j = Cert.Hist.bin (x0 j) := by
  simp only [val_main_v11_apply, val_main_call1_v4_apply, val_main_call1_v3_apply, val_main_c_4_apply,
    val_main_call1_v2_apply, val_main_call1_v1_apply, val_main_call1_v0_apply, val_main_c_3_apply,
    val_main_v10_apply, val_main_v9_apply, val_main_v8_apply, val_main_v7_apply, val_main_cst_2_apply,
    val_main_v6_apply, val_main_v5_apply, val_main_cst_1_apply, val_main_v4_apply, val_main_v3_apply,
    val_main_cst_apply, val_main_v2_apply, val_main_v1_apply, val_main_call0_v4_apply, val_main_call0_v3_apply,
    val_main_c_0_apply, val_main_call0_v2_apply, val_main_call0_v1_apply, val_main_call0_v0_apply,
    val_main_c_apply, val_main_v0_apply]
  rfl

/-- The segment word of the flat entry e = C + 16384 · R' is 100 · R' + the bin word of x (R', C), as 32-bit words. -/
theorem segWord_apply (x0 : (⟨S4096x16384, .f32⟩ : BufTy).Contents (Elt Ideal)) (k : Fin 4096) (j : Fin 16384)
    (e : Fin 67108864) (he : e.val = j.val + 16384 * k.val) :
    val_main_v21 (F := Ideal) x0 (ix2 e (0 : Fin 1))
      = IntOp.addi (IntOp.muli (BitVec.ofNat 32 k.val) 100#32) (Cert.Hist.bin (x0 (ix2 k j))) := by
  have hkj : idx_main_v18 (idx_main_v21 (ix2 e (0 : Fin 1))) = ix2 k j := by
    funext a; refine Fin.ext ?_
    have hj := j.isLt
    match a with
    | ⟨0, _⟩ => show e.val / 16384 = k.val; omega
    | ⟨1, _⟩ => show e.val % 16384 = j.val; omega
  have hk1 : idx_main_v13 (idx_main_v16 (ix2 k j)) = ix1 k := by
    funext a
    match a with
    | ⟨0, _⟩ => rfl
  rw [val_main_v21_apply, val_main_v18_apply, hkj, val_main_v17_apply, val_main_v16_apply, val_main_v15_apply,
    val_main_v13_apply, hk1, val_main_v12_apply, val_main_v14_apply, val_main_c_5_apply, binWord_apply]

/-- A segment word 100 · k + w with w in [0, 99], read signed, is 100 · R + b exactly when k = R and w is the word b. -/
theorem segWord_iff (k R : Fin 4096) (b : Fin 100) (w : BitVec 32) (hw0 : 0 ≤ w.toInt) (hw1 : w.toInt ≤ 99) :
    (IntOp.addi (IntOp.muli (BitVec.ofNat 32 k.val) 100#32) w).toInt = ((R.val * 100 + b.val : Nat) : Int)
      ↔ k = R ∧ w = BitVec.ofNat 32 b.val := by
  have hk := k.isLt; have hR := R.isLt; have hb := b.isLt
  have hwlt := w.isLt
  have hwn : w.toNat ≤ 99 := by
    rw [BitVec.toInt_eq_toNat_cond] at hw0 hw1
    split at hw1 <;> omega
  have h100 : (100#32 : BitVec 32).toNat = 100 := rfl
  have hsum : (BitVec.ofNat 32 k.val * 100#32 + w).toNat = k.val * 100 + w.toNat := by
    rw [BitVec.toNat_add, BitVec.toNat_mul, BitVec.toNat_ofNat, h100]; omega
  have hint : (IntOp.addi (IntOp.muli (BitVec.ofNat 32 k.val) 100#32) w).toInt = ((k.val * 100 + w.toNat : Nat) : Int) := by
    unfold IntOp.addi IntOp.muli
    rw [BitVec.toInt_eq_toNat_of_lt (by rw [hsum]; omega), hsum]
  rw [hint]
  constructor
  · intro h
    have h' : k.val * 100 + w.toNat = R.val * 100 + b.val := by exact_mod_cast h
    refine ⟨Fin.ext (by omega), BitVec.eq_of_toNat_eq ?_⟩
    rw [BitVec.toNat_ofNat]; omega
  · rintro ⟨rfl, rfl⟩
    rw [BitVec.toNat_ofNat]
    have : b.val % 2 ^ 32 = b.val := by omega
    rw [this]

/-- A sum over the 4096 · 16384 flat entries is the sum over the rows of the sums over each row's columns. -/
theorem sum_rows {M : Type*} [AddCommMonoid M] (f : Fin 67108864 → M) :
    ∑ e : Fin 67108864, f e = ∑ k : Fin 4096, ∑ j : Fin 16384, f ⟨j.val + 16384 * k.val, by have := k.isLt; have := j.isLt; omega⟩ :=
  Cert.LibBlockSum.sum_blocks (a := 4096) (b := 16384) f

end Cert.ReferenceIdeal.RefWords

end
-- ==== Proof.RefHist.lean ====
/-
  The reference computes the histogram.

  The reference flattens the array of bin words to one vector of 4096 · 16384 entries, entry e = 16384 · R' + C
  carrying the segment word 100 · R' + bin (x (R', C)), and adds a 1 into segment s of a zero vector of 4096 · 100
  segments for every entry whose segment word is s; the result is read as [4096, 100], entry (R, b) being segment
  100 · R + b. A bin word lies in [0, 99], so 100 · R' + bin = 100 · R + b exactly when R' = R and bin = b: the
  sum of ones over the entries of segment 100 · R + b, cut into the rows R' of 16384 entries, keeps row R alone
  and there counts the columns C with bin (x (R, C)) = b.
-/
import proofs.«119066_j21311627723520_1_alg».proof.Proof.RefReadP
import proofs.«119066_j21311627723520_1_alg».proof.Proof.HistSpec
import proofs.«119066_j21311627723520_1_alg».proof.Proof.LibScatterFlat
import proofs.«119066_j21311627723520_1_alg».proof.Proof.LibBlockSum
import proofs.«119066_j21311627723520_1_alg».proof.Proof.RefWords

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.ValueIdx Cert.ReferenceIdeal.RefWords

/-- The reference's segment sum is a scatter-add of scalars into a vector (the operation's definition, read at the
    level of whole arrays). -/
theorem segments_eq (x0 : (⟨S4096x16384, .f32⟩ : BufTy).Contents (Elt Ideal)) :
    val_main_v22 (F := Ideal) x0
      = Ideal.hostScatterAdd (HistLib.flatScatterDims 409600 67108864 scatter_S409600_S67108864x1_S67108864_n_0_0_1_wf)
          (val_main_v20 (F := Ideal)) (val_main_v21 (F := Ideal) x0) (val_main_v19 (F := Ideal)) := rfl

/-- Segment n of the reference's segment sum: the number of flat entries whose segment word, read signed, is n. -/
theorem segments_apply (x0 : (⟨S4096x16384, .f32⟩ : BufTy).Contents (Elt Ideal)) (n : Fin 409600) :
    val_main_v22 (F := Ideal) x0 (ix1 n)
      = ∑ e : Fin 67108864, if (val_main_v21 (F := Ideal) x0 (ix2 e (0 : Fin 1))).toInt = (n.val : Int) then (1 : EReal) else 0 := by
  rw [segments_eq]
  exact HistLib.scatterAdd_flat_ones scatter_S409600_S67108864x1_S67108864_n_0_0_1_wf
    (val_main_v20 (F := Ideal)) (val_main_v21 (F := Ideal) x0) (val_main_v19 (F := Ideal)) n
    (by rw [val_main_v20_apply, val_main_cst_7_apply]; exact Cert.Hist.zero_word)
    (fun e => by rw [val_main_v19_apply, val_main_cst_6_apply]; exact Cert.Hist.one_word)

/-- THE REFERENCE'S RESULT IS THE HISTOGRAM. -/
theorem ref_is_hist (x0 : (⟨S4096x16384, .f32⟩ : BufTy).Contents (Elt Ideal)) :
    val_main_v23 (F := Ideal) x0 = Cert.Hist.G x0 := by
  funext i
  obtain ⟨R, b, rfl⟩ : ∃ (R : Fin 4096) (b : Fin 100), i = ix2 R b := ⟨i 0, i 1, eq_ix2 i⟩
  have hR := R.isLt; have hb := b.isLt
  have hidx : idx_main_v23 (ix2 R b) = ix1 (⟨R.val * 100 + b.val, by omega⟩ : Fin 409600) := by
    funext a
    match a with
    | ⟨0, _⟩ => rfl
  rw [val_main_v23_apply, hidx, Cert.Hist.G_apply, segments_apply, sum_rows]
  rw [Finset.sum_eq_single R]
  · refine Finset.sum_congr rfl fun j _ => ?_
    rw [segWord_apply x0 R j _ rfl]
    unfold Cert.Hist.hit
    have hr := Cert.Hist.bin_range (x0 (ix2 R j))
    by_cases hw : Cert.Hist.bin (x0 (ix2 R j)) = BitVec.ofNat 32 b.val
    · rw [if_pos ((segWord_iff R R b _ hr.1 hr.2).2 ⟨rfl, hw⟩), if_pos hw]
    · rw [if_neg (fun h => hw ((segWord_iff R R b _ hr.1 hr.2).1 h).2), if_neg hw]
  · intro k _ hk
    refine Finset.sum_eq_zero fun j _ => ?_
    rw [segWord_apply x0 k j _ rfl]
    have hr := Cert.Hist.bin_range (x0 (ix2 k j))
    rw [if_neg (fun h => hk ((segWord_iff k R b _ hr.1 hr.2).1 h).1)]
  · intro h; exact absurd (Finset.mem_univ R) h

end Cert.ReferenceIdeal.RefValue

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.KernelCols.lean ====
/-
  One tile's column counts.

  The body turns its input tile x (512 rows, 4096 columns) into the tile of bin words idx = bin ∘ x and then,
  for each of the hundred bins k, into the column "how many entries of each row fall in bin k": the
  comparison of idx with k, widened to a word, read as a number (0 or 1) and summed along the row. The
  hundred columns are laid side by side. Read at (r, b) the result is the number of columns c of row r of
  the tile with bin (x (r, c)) = b.
-/
import proofs.«119066_j21311627723520_1_alg».proof.Proof.Gen.KernelIdeal.Skeleton
import proofs.«119066_j21311627723520_1_alg».proof.Proof.HistSpec
import proofs.«119066_j21311627723520_1_alg».proof.Proof.LibKeepdims
import proofs.«119066_j21311627723520_1_alg».proof.Proof.LibRowReduce
import Idealize.ShloMosaic.Lib.Pipeline.Value
import Idealize.ShloMosaic.PureOps.Ideal.Laws

set_option maxRecDepth 65536

noncomputable section

open scoped BigOperators

namespace Cert.KernelIdeal.Cols

open Cert.KernelIdeal Cert.KernelIdeal.Gen Idealize.ShloMosaic Idealize.ShloMosaic.ValueIdx

variable {F : FTy → Type} [FloatOps F]

/-- The column of bin k: per row of the tile of bin words, the number of entries equal to k. -/
def col (k : BitVec 32) (idx : IVec S512x4096 32) : FVec F S512x1 .f32 :=
  shapeCast S512x1 (multiReduction .add [1] S512 (sitofp .f32 (extui 32 (cmpi .eq idx (broadcast S512x4096 k)) natLt_1_32))
    0x00000000#32 reduces_S512x4096_S512 (.inl rfl) rfl) shapeCasts_S512_S512x1

/-- The tile of the hundred columns, as the body computes it from the input tile. -/
def tileCounts (x0 : Vec F S512x4096 .f32) : FVec F S512x100 .f32 :=
  k0_pay103 (k0_pay3 x0) (k0_pay4 x0) (k0_pay5 x0) (k0_pay6 x0) (k0_pay7 (k0_pay3 x0)) (k0_pay8 (k0_pay3 x0)) (k0_pay9 (k0_pay3 x0)) (k0_pay10 (k0_pay3 x0)) (k0_pay11 (k0_pay3 x0)) (k0_pay12 (k0_pay3 x0)) (k0_pay13 (k0_pay3 x0)) (k0_pay15 (k0_pay14 (k0_pay3 x0))) (k0_pay16 (k0_pay3 x0)) (k0_pay17 (k0_pay3 x0)) (k0_pay18 (k0_pay3 x0)) (k0_pay19 (k0_pay3 x0)) (k0_pay20 (k0_pay3 x0)) (k0_pay21 (k0_pay3 x0)) (k0_pay22 (k0_pay3 x0)) (k0_pay23 (k0_pay3 x0)) (k0_pay24 (k0_pay3 x0)) (k0_pay25 (k0_pay3 x0)) (k0_pay26 (k0_pay3 x0)) (k0_pay27 (k0_pay3 x0)) (k0_pay28 (k0_pay3 x0)) (k0_pay29 (k0_pay3 x0)) (k0_pay31 (k0_pay30 (k0_pay3 x0))) (k0_pay32 (k0_pay3 x0)) (k0_pay33 (k0_pay3 x0)) (k0_pay34 (k0_pay3 x0)) (k0_pay35 (k0_pay3 x0)) (k0_pay36 (k0_pay3 x0)) (k0_pay37 (k0_pay3 x0)) (k0_pay38 (k0_pay3 x0)) (k0_pay39 (k0_pay3 x0)) (k0_pay40 (k0_pay3 x0)) (k0_pay41 (k0_pay3 x0)) (k0_pay42 (k0_pay3 x0)) (k0_pay43 (k0_pay3 x0)) (k0_pay44 (k0_pay3 x0)) (k0_pay45 (k0_pay3 x0)) (k0_pay47 (k0_pay46 (k0_pay3 x0))) (k0_pay48 (k0_pay3 x0)) (k0_pay49 (k0_pay3 x0)) (k0_pay50 (k0_pay3 x0)) (k0_pay51 (k0_pay3 x0)) (k0_pay52 (k0_pay3 x0)) (k0_pay53 (k0_pay3 x0)) (k0_pay54 (k0_pay3 x0)) (k0_pay55 (k0_pay3 x0)) (k0_pay56 (k0_pay3 x0)) (k0_pay57 (k0_pay3 x0)) (k0_pay58 (k0_pay3 x0)) (k0_pay59 (k0_pay3 x0)) (k0_pay60 (k0_pay3 x0)) (k0_pay61 (k0_pay3 x0)) (k0_pay63 (k0_pay62 (k0_pay3 x0))) (k0_pay64 (k0_pay3 x0)) (k0_pay65 (k0_pay3 x0)) (k0_pay66 (k0_pay3 x0)) (k0_pay67 (k0_pay3 x0)) (k0_pay68 (k0_pay3 x0)) (k0_pay69 (k0_pay3 x0)) (k0_pay70 (k0_pay3 x0)) (k0_pay71 (k0_pay3 x0)) (k0_pay72 (k0_pay3 x0)) (k0_pay73 (k0_pay3 x0)) (k0_pay74 (k0_pay3 x0)) (k0_pay75 (k0_pay3 x0)) (k0_pay76 (k0_pay3 x0)) (k0_pay77 (k0_pay3 x0)) (k0_pay79 (k0_pay78 (k0_pay3 x0))) (k0_pay80 (k0_pay3 x0)) (k0_pay81 (k0_pay3 x0)) (k0_pay82 (k0_pay3 x0)) (k0_pay83 (k0_pay3 x0)) (k0_pay84 (k0_pay3 x0)) (k0_pay85 (k0_pay3 x0)) (k0_pay86 (k0_pay3 x0)) (k0_pay87 (k0_pay3 x0)) (k0_pay88 (k0_pay3 x0)) (k0_pay89 (k0_pay3 x0)) (k0_pay90 (k0_pay3 x0)) (k0_pay91 (k0_pay3 x0)) (k0_pay92 (k0_pay3 x0)) (k0_pay93 (k0_pay3 x0)) (k0_pay95 (k0_pay94 (k0_pay3 x0))) (k0_pay96 (k0_pay3 x0)) (k0_pay97 (k0_pay3 x0)) (k0_pay98 (k0_pay3 x0)) (k0_pay99 (k0_pay3 x0)) (k0_pay100 (k0_pay3 x0)) (k0_pay101 (k0_pay3 x0)) (k0_pay102 (k0_pay3 x0))

/-- The body's list of columns is the list of the columns of bins 0, 1, …, 99 of the tile's bin words. -/
theorem tileCounts_eq (x0 : Vec F S512x4096 .f32) :
    tileCounts x0 = concatenate S512x100 1
      (List.ofFn fun n : Fin 100 => (⟨S512x1, col (BitVec.ofNat 32 n.val) (k0_pay3 x0)⟩ : (s : Shape) × (s.Idx → F .f32)))
      concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x100_d1 := rfl

/-- The tile's bin words are the bin words of its entries. -/
theorem binWords_apply (x0 : Vec Ideal S512x4096 .f32) (j : S512x4096.Idx) :
    k0_pay3 (F := Ideal) x0 j = Cert.Hist.bin (x0 j) := rfl

/-- The column of bin k at row r: the number of entries of the row with bin word k. -/
theorem col_apply (k : BitVec 32) (idx : IVec S512x4096 32) (r : Fin 512) :
    col (F := Ideal) k idx (ix2 r (0 : Fin 1)) = ∑ c : Fin 4096, Cert.Hist.hit (idx (ix2 r c)) k := by
  unfold col
  rw [Cert.LibKeepdims.shapeCast_a_a1_apply]
  refine (Cert.LibRowReduce.rowSum_apply (a := 512) (b := 4096) (φ := .f32) _ _ _ _ _ r).trans ?_
  exact Finset.sum_congr rfl fun c _ => Cert.Hist.hit_eq (idx (ix2 r c)) k

/-- THE TILE'S COUNTS AT (r, b): the number of columns c of the tile's row r with bin (x (r, c)) = b. -/
theorem tileCounts_apply (x0 : Vec Ideal S512x4096 .f32) (r : Fin 512) (b : Fin 100) :
    tileCounts (F := Ideal) x0 (ix2 r b)
      = ∑ c : Fin 4096, Cert.Hist.hit (Cert.Hist.bin (x0 (ix2 r c))) (BitVec.ofNat 32 b.val) := by
  rw [tileCounts_eq]
  refine (concatenate_ofFn_unit_apply (t := S512x100) (s₁ := S512x1) (1 : Fin 2) (fun n : Fin 100 => col (F := Ideal) (BitVec.ofNat 32 n.val) (k0_pay3 x0))
    _ rfl rfl (ix2 r b) b rfl (ix2 r (0 : Fin 1)) (fun d hd => ?_)).trans ?_
  · match d with
    | ⟨0, _⟩ => rfl
    | ⟨1, _⟩ => exact absurd rfl hd
  · rw [col_apply]
    exact Finset.sum_congr rfl fun c _ => by rw [binWords_apply]

end Cert.KernelIdeal.Cols

end
-- ==== Proof.KernelPieces.lean ====
/-
  What one grid point leaves in the accumulator and in the output tile.

  At every point the body adds the tile's column counts to the accumulator: the accumulator ends the point at
  (what it held) + (the tile's counts). At the first point of a row of tiles the body first stores zeros, so
  "what it held" is the zero tile there. At the last point of a row of tiles the body copies the accumulator,
  as just updated, into the output tile.
-/
import proofs.«119066_j21311627723520_1_alg».proof.Proof.Gen.KernelIdeal.Frame
import proofs.«119066_j21311627723520_1_alg».proof.Proof.KernelCols

set_option maxRecDepth 65536

noncomputable section

namespace Cert.KernelIdeal.Pieces

open Cert.KernelIdeal Cert.KernelIdeal.Gen Cert.KernelIdeal.Cols
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

/-- One point's update of the accumulator: what it held plus the counts of the point's tile. -/
def step (x0 : Vec F S512x4096 .f32) (acc : Vec F S512x100 .f32) : Vec F S512x100 .f32 :=
  k0_pay1 (tileCounts x0) acc

/-- A point in the middle of a row of tiles leaves the accumulator at its update. -/
theorem scratch_B (c : Dev nD) (i : grid0.Coords) (arg2 : Memref sig .tc .vmem S512x4096 .f32) (harg2 : arg2.IsWhole) (arg3 : Memref sig .tc .vmem S512x100 .f32) (harg3 : arg3.IsWhole) (arg4 : Memref sig .tc .vmem S512x100 .f32) (harg4 : arg4.IsWhole) (hc0 : ¬cond0_0 i) (hc1 : ¬cond0_1 i)
    (x0 : Vec F S512x4096 .f32) (xs0 : Vec F S512x100 .f32) :
    sout0_B_0 c i arg2 harg2 arg3 harg3 arg4 harg4 hc0 hc1 x0 xs0 = step x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero hz]
  simp only [View.readAt_eq_ld, harg2.read_unread, harg4.read_unread, View.ld_unit_zero (S := S512x4096) hz,
    View.ld_unit_zero (S := S512x100) hz]
  rfl

/-- The last point of a row of tiles leaves the accumulator at its update as well, -/
theorem scratch_C (c : Dev nD) (i : grid0.Coords) (arg2 : Memref sig .tc .vmem S512x4096 .f32) (harg2 : arg2.IsWhole) (arg3 : Memref sig .tc .vmem S512x100 .f32) (harg3 : arg3.IsWhole) (arg4 : Memref sig .tc .vmem S512x100 .f32) (harg4 : arg4.IsWhole) (hc0 : ¬cond0_0 i) (hc1 : cond0_1 i)
    (x0 : Vec F S512x4096 .f32) (xs0 : Vec F S512x100 .f32) :
    sout0_C_0 c i arg2 harg2 arg3 harg3 arg4 harg4 hc0 hc1 x0 xs0 = step x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz]
  simp only [View.readAt_eq_ld, harg2.read_unread, harg4.read_unread, View.ld_unit_zero (S := S512x4096) hz,
    View.ld_unit_zero (S := S512x100) hz]
  rfl

/-- and copies that update into the output tile. -/
theorem out_C (c : Dev nD) (i : grid0.Coords) (arg2 : Memref sig .tc .vmem S512x4096 .f32) (harg2 : arg2.IsWhole) (arg3 : Memref sig .tc .vmem S512x100 .f32) (harg3 : arg3.IsWhole) (arg4 : Memref sig .tc .vmem S512x100 .f32) (harg4 : arg4.IsWhole) (hc0 : ¬cond0_0 i) (hc1 : cond0_1 i)
    (x0 : Vec F S512x4096 .f32) (xs0 : Vec F S512x100 .f32) :
    out0_C_1 c i arg2 harg2 arg3 harg3 arg4 harg4 hc0 hc1 x0 xs0 = step x0 xs0 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz, View.readCov_unit_zero (S := S512x100) _ hz]
  simp only [View.readAt_eq_ld, harg2.read_unread, harg4.read_unread, View.ld_unit_zero (S := S512x4096) hz,
    View.ld_unit_zero (S := S512x100) hz]
  rfl

/-- The first point of a row of tiles stores the zero tile first: its update starts from zero. -/
theorem scratch_A (c : Dev nD) (i : grid0.Coords) (arg2 : Memref sig .tc .vmem S512x4096 .f32) (harg2 : arg2.IsWhole) (arg3 : Memref sig .tc .vmem S512x100 .f32) (harg3 : arg3.IsWhole) (arg4 : Memref sig .tc .vmem S512x100 .f32) (harg4 : arg4.IsWhole) (hc0 : cond0_0 i) (hc1 : ¬cond0_1 i)
    (x0 : Vec F S512x4096 .f32) :
    sout0_A_0 c i arg2 harg2 arg3 harg3 arg4 harg4 hc0 hc1 x0 = step x0 (k0_pay2 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S512x100) hz, View.readCov_unit_zero (S := S512x100) _ hz]
  simp only [View.readAt_eq_ld, harg2.read_unread, View.ld_unit_zero (S := S512x4096) hz,
    View.ld_unit_zero (S := S512x100) hz]
  rfl

end Cert.KernelIdeal.Pieces

end
-- ==== Proof.KernelAcc.lean ====
/-
  The accumulator along a row of tiles.

  The grid walks the tiles row of tiles by row of tiles: point n is tile n % 4 of row of tiles n / 4. The
  accumulator is reset at the first tile of a row of tiles and afterwards gains each tile's counts, so after point
  n it holds the sum of the counts of tiles 0, …, n % 4 of row of tiles n / 4 (induction on n). At the last tile
  (n % 4 = 3) the output tile receives the same sum: the counts of all four tiles, that is, of all the 16384 columns
  of the 512 rows of that row of tiles.
-/
import proofs.«119066_j21311627723520_1_alg».proof.Proof.Gen.KernelIdeal.Frame
import proofs.«119066_j21311627723520_1_alg».proof.Proof.KernelPieces
import proofs.«119066_j21311627723520_1_alg».proof.Proof.LibBlockSum

set_option maxRecDepth 65536

noncomputable section

open scoped BigOperators

namespace Cert.KernelIdeal.Acc

open Cert.KernelIdeal Cert.KernelIdeal.Gen Cert.KernelIdeal.Cols Cert.KernelIdeal.Pieces
open Idealize.ShloMosaic Idealize.ShloMosaic.TcCoe Idealize.ShloMosaic.ValueIdx
open Idealize.SL Idealize.SL.Sem

variable (m : (ℓ : Loc nD τ sig) → Buf (Elt Ideal) ℓ) (c : Dev nD)

/-- An array [4096, 16384] read at natural-number coordinates (0 outside the array). -/
def at2 (X : (⟨2, ![4096, 16384]⟩ : Shape).Idx → EReal) (R C : ℕ) : EReal :=
  if h : R < 4096 ∧ C < 16384 then X (ix2 ⟨R, h.1⟩ ⟨C, h.2⟩) else 0

theorem at2_apply (X : (⟨2, ![4096, 16384]⟩ : Shape).Idx → EReal) (R : Fin 4096) (C : Fin 16384) :
    at2 X R.val C.val = X (ix2 R C) := by
  unfold at2; rw [dif_pos ⟨R.isLt, C.isLt⟩]

/-- The input's block index at point t is (t / 4, t % 4), decided over the grid. -/
theorem idx_facts0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)

/-- The input tile of point t, at (r, cc), is the input array at (512 · (t / 4) + r, cc + 4096 · (t % 4)). -/
theorem iblk_apply (t : Fin cfg0.N) (r : Fin 512) (cc : Fin 4096) :
    iblk m c 0 t (ix2 r cc) = at2 (V m c main_arg0) (512 * (t.val / 4) + r.val) (cc.val + 4096 * (t.val % 4)) := by
  have hN : t.val < 32 := lt_of_lt_of_eq t.isLt N_0
  have hr := r.isLt; have hc := cc.isLt
  obtain ⟨e0, e1⟩ := idx_facts0 t
  unfold at2
  rw [dif_pos ⟨by omega, by omega⟩]
  show V m c main_arg0 (((cfg0.win 0).blk t).view.emb (ix2 r cc)) = V m c main_arg0 _
  refine congrArg (V m c main_arg0) ?_
  funext a; apply Fin.ext
  match a with
  | ⟨0, _⟩ => show win0_0.index t (0 : Fin 2) * 512 + 1 * r.val = 512 * (t.val / 4) + r.val; omega
  | ⟨1, _⟩ => show win0_0.index t (1 : Fin 2) * 4096 + 1 * cc.val = cc.val + 4096 * (t.val % 4); omega

/-- One update read at (r, b): what the accumulator held there plus the tile's count there. -/
theorem step_apply (x0 : Vec Ideal S512x4096 .f32) (acc : Vec Ideal S512x100 .f32) (r : Fin 512) (b : Fin 100) :
    step x0 acc (ix2 r b) = acc (ix2 r b) + tileCounts x0 (ix2 r b) := by
  unfold step k0_pay1
  rw [shapeCast_self]
  rfl

/-- The zero tile is zero everywhere. -/
theorem zeroTile_apply (j : S512x100.Idx) : k0_pay2 (F := Ideal) j = 0 := by
  unfold k0_pay2
  rw [shapeCast_self]
  exact Cert.Hist.zero_word

/-- The counts of the tile of point u at (r, b) (0 past the grid). -/
def tileAt (u : ℕ) (r : Fin 512) (b : Fin 100) : EReal :=
  if h : u < cfg0.N then tileCounts (F := Ideal) (iblk m c 0 ⟨u, h⟩) (ix2 r b) else 0

/-- THE ACCUMULATOR AFTER POINT n: the counts of tiles 0, …, n % 4 of its row of tiles, added up. -/
theorem acc_inv : ∀ (n : ℕ) (hn : n < cfg0.N) (r : Fin 512) (b : Fin 100),
    (outsAt0 m c n hn).2 (ix2 r b) = ∑ s ∈ Finset.range (n % 4 + 1), tileAt m c (4 * (n / 4) + s) r b := by
  intro n
  induction n with
  | zero =>
    intro hn r b
    rw [outsAt0_A m c ⟨0, hn⟩ (Nat.zero_mod 4) (by show ¬ 0 % 4 = 3; omega)]
    dsimp only
    rw [scratch_A, step_apply, zeroTile_apply, zero_add]
    simp [tileAt, hn]
  | succ n ih =>
    intro hn r b
    have hN : n + 1 < 32 := lt_of_lt_of_eq hn N_0
    have hlast : ∀ (A : EReal), (n + 1) % 4 ≠ 0 →
        A = ∑ s ∈ Finset.range (n % 4 + 1), tileAt m c (4 * (n / 4) + s) r b →
        A + tileCounts (F := Ideal) (iblk m c 0 ⟨n + 1, hn⟩) (ix2 r b)
          = ∑ s ∈ Finset.range ((n + 1) % 4 + 1), tileAt m c (4 * ((n + 1) / 4) + s) r b := by
      intro A h0 hA
      have e1 : (n + 1) % 4 = n % 4 + 1 := by omega
      have e2 : (n + 1) / 4 = n / 4 := by omega
      have e3 : 4 * (n / 4) + (n % 4 + 1) = n + 1 := by omega
      rw [e1, e2, Finset.sum_range_succ, ← hA, e3]
      unfold tileAt
      rw [dif_pos hn]
    by_cases h0 : (n + 1) % 4 = 0
    · have h1 : ¬ (n + 1) % 4 = 3 := by omega
      rw [outsAt0_A m c ⟨n + 1, hn⟩ h0 h1]
      dsimp only
      rw [scratch_A, step_apply, zeroTile_apply, zero_add, h0, Finset.sum_range_one]
      have e : 4 * ((n + 1) / 4) + 0 = n + 1 := by omega
      have e' : tileAt m c (4 * ((n + 1) / 4) + 0) r b = tileAt m c (n + 1) r b := congrArg (fun u => tileAt m c u r b) e
      rw [e']
      unfold tileAt
      rw [dif_pos hn]
    · by_cases h1 : (n + 1) % 4 = 3
      · rw [outsAt0_C m c ⟨n + 1, hn⟩ h0 h1]
        dsimp only
        rw [scratch_C, step_apply]
        exact hlast _ h0 (ih (Nat.lt_of_succ_lt hn) r b)
      · rw [outsAt0_B m c ⟨n + 1, hn⟩ h0 h1]
        dsimp only
        rw [scratch_B, step_apply]
        exact hlast _ h0 (ih (Nat.lt_of_succ_lt hn) r b)

/-- THE OUTPUT TILE AT THE LAST POINT OF A ROW OF TILES: the counts of its four tiles, added up. -/
theorem out_last (t : Fin cfg0.N) (h3 : t.val % 4 = 3) (r : Fin 512) (b : Fin 100) :
    (outsAt0 m c t.val t.isLt).1 (ix2 r b) = ∑ s ∈ Finset.range 4, tileAt m c (4 * (t.val / 4) + s) r b := by
  have h0 : ¬ t.val % 4 = 0 := by omega
  have e := acc_inv m c t.val t.isLt r b
  rw [h3] at e
  rw [outsAt0_C m c t h0 h3] at e ⊢
  dsimp only at e ⊢
  rw [scratch_C] at e
  rw [out_C]
  exact e

/-- The counts of tile s of row of tiles p at (r, b), over the input array: the columns cc + 4096 · s of row 512 · p + r. -/
theorem tileAt_apply (p s : ℕ) (hp : p < 8) (hs : s < 4) (r : Fin 512) (b : Fin 100) :
    tileAt m c (4 * p + s) r b
      = ∑ cc : Fin 4096, Cert.Hist.hit (Cert.Hist.bin (at2 (V m c main_arg0) (512 * p + r.val) (cc.val + 4096 * s)))
          (BitVec.ofNat 32 b.val) := by
  have hu : 4 * p + s < cfg0.N := lt_of_lt_of_eq (by omega) N_0.symm
  unfold tileAt
  rw [dif_pos hu, tileCounts_apply]
  refine Finset.sum_congr rfl fun cc _ => ?_
  rw [iblk_apply]
  have e1 : (4 * p + s) / 4 = p := by omega
  have e2 : (4 * p + s) % 4 = s := by omega
  show Cert.Hist.hit (Cert.Hist.bin (at2 (V m c main_arg0) (512 * ((4 * p + s) / 4) + r.val) (cc.val + 4096 * ((4 * p + s) % 4)))) _ = _
  rw [e1, e2]

/-- THE FOUR TILES TOGETHER are the whole rows: entry (r, b) of the output tile of row of tiles p is the histogram
    of row 512 · p + r of the input at bin b. -/
theorem out_hist (t : Fin cfg0.N) (h3 : t.val % 4 = 3) (r : Fin 512) (b : Fin 100) (R : Fin 4096)
    (hR : R.val = 512 * (t.val / 4) + r.val) :
    (outsAt0 m c t.val t.isLt).1 (ix2 r b) = Cert.Hist.G (V m c main_arg0) (ix2 R b) := by
  have hN : t.val < 32 := lt_of_lt_of_eq t.isLt N_0
  rw [out_last m c t h3, Cert.Hist.G_apply, Finset.sum_range]
  rw [Cert.LibBlockSum.sum_blocks (a := 4) (b := 4096)
    (fun C : Fin 16384 => Cert.Hist.hit (Cert.Hist.bin (V m c main_arg0 (ix2 R C))) (BitVec.ofNat 32 b.val))]
  refine Finset.sum_congr rfl fun s _ => ?_
  rw [tileAt_apply m c (t.val / 4) s.val (by omega) s.isLt]
  refine Finset.sum_congr rfl fun cc _ => ?_
  rw [← hR, ← at2_apply (V m c main_arg0) R (Cert.LibBlockSum.pos s cc)]
  rfl

end Cert.KernelIdeal.Acc

end
-- ==== Proof.KernelValue.lean ====
/-
  The kernel's result array is the histogram.

  The output window is written back only at the last point of each row of tiles (t % 4 = 3), its block being rows
  512 · (t / 4) … 512 · (t / 4) + 511 of the result, all 100 columns. What is written back there is the output tile,
  whose entry (r, b) is the histogram of input row 512 · (t / 4) + r at bin b: the block of the histogram at that
  place. The eight written blocks cover the result array (row R lies in the block of point 4 · (R / 512) + 3), so
  after the run the array is the histogram of the input array.
-/
import proofs.«119066_j21311627723520_1_alg».proof.Proof.Gen.KernelIdeal.Value
import proofs.«119066_j21311627723520_1_alg».proof.Proof.KernelAcc

set_option maxRecDepth 65536

noncomputable section

namespace Cert.KernelIdeal.HistValue

open Cert.KernelIdeal Cert.KernelIdeal.Gen Cert.KernelIdeal.Acc
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The output's block index at point t is (t / 4, 0), decided over the grid. -/
theorem idx_facts1 : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)

/-- WHAT A WRITING POINT WRITES BACK is its block of the histogram of the input array. -/
theorem flushed_eq (c : Dev nD) (t : Fin cfg0.N) (hf : (cfg0.win 1).flush t = true) :
    (dats m 0 c).flushed 1 t = ((cfg0.win 1).blk t).view.read (Elt Ideal) (Cert.Hist.G (V m c main_arg0)) := by
  have h3 : t.val % 4 = 3 := (flush0_1 t).mp hf
  have hN : t.val < 32 := lt_of_lt_of_eq t.isLt N_0
  rw [Cert.KernelIdeal.Value.flushed1]
  obtain ⟨e0, e1⟩ := idx_facts1 t
  funext j
  obtain ⟨r, b, rfl⟩ : ∃ (r : Fin 512) (b : Fin 100), j = ix2 r b := ⟨j 0, j 1, eq_ix2 j⟩
  have hr := r.isLt
  show (outsAt0 m c t.val t.isLt).1 (ix2 r b)
    = Cert.Hist.G (V m c main_arg0) (((cfg0.win 1).blk t).view.emb (ix2 r b))
  rw [out_hist m c t h3 r b ⟨512 * (t.val / 4) + r.val, by omega⟩ rfl]
  refine congrArg (Cert.Hist.G (V m c main_arg0)) ?_
  funext a; apply Fin.ext
  match a with
  | ⟨0, _⟩ => show 512 * (t.val / 4) + r.val = win0_1.index t (0 : Fin 2) * 512 + 1 * r.val; omega
  | ⟨1, _⟩ => show b.val = win0_1.index t (1 : Fin 2) * 100 + 1 * b.val; omega

/-- An index of the result is in point t's block iff each coordinate is in the block's range on its axis. -/
theorem mem_blk (t : Fin cfg0.N) (i : S4096x100.Idx) :
    i ∈ ((cfg0.win 1).blk t).view.set ↔ ∀ a : Fin 2, win0_1.index t a * S512x100.size a ≤ (i a).val
      ∧ (i a).val < win0_1.index t a * S512x100.size a + S512x100.size a := by
  show i ∈ ((View.whole main_v0).slice (win0_1.rect t)).set ↔ _
  rw [View.set_slice_whole, Rect.mem_set_unit]
  exact Iff.rfl

/-- Every index of the result lies in the block of a writing point: row R in that of point 4 · (R / 512) + 3. -/
theorem cover (i : S4096x100.Idx) :
    ∃ t : Fin cfg0.N, (cfg0.win 1).flush t = true ∧ i ∈ ((cfg0.win 1).blk t).view.set := by
  have hi0 : (i 0).val < 4096 := (i 0).isLt
  have hi1 : (i 1).val < 100 := (i 1).isLt
  have hN : 4 * ((i 0).val / 512) + 3 < cfg0.N := lt_of_lt_of_eq (by omega) N_0.symm
  refine ⟨⟨4 * ((i 0).val / 512) + 3, hN⟩, (flush0_1 _).mpr (by show (4 * ((i 0).val / 512) + 3) % 4 = 3; omega), ?_⟩
  rw [mem_blk]
  obtain ⟨e0, e1⟩ := idx_facts1 ⟨4 * ((i 0).val / 512) + 3, hN⟩
  have e0' : win0_1.index ⟨4 * ((i 0).val / 512) + 3, hN⟩ (0 : Fin 2) = (4 * ((i 0).val / 512) + 3) / 4 := e0
  intro a
  match a with
  | ⟨0, _⟩ =>
    show win0_1.index ⟨4 * ((i 0).val / 512) + 3, hN⟩ (0 : Fin 2) * 512 ≤ (i 0).val
      ∧ (i 0).val < win0_1.index ⟨4 * ((i 0).val / 512) + 3, hN⟩ (0 : Fin 2) * 512 + 512
    rw [e0']; omega
  | ⟨1, _⟩ =>
    show win0_1.index ⟨4 * ((i 0).val / 512) + 3, hN⟩ (1 : Fin 2) * 100 ≤ (i 1).val
      ∧ (i 1).val < win0_1.index ⟨4 * ((i 0).val / 512) + 3, hN⟩ (1 : Fin 2) * 100 + 100
    rw [e1]; omega

/-- THE RESULT ARRAY after the run is the histogram of the input array. -/
theorem final (c : Dev nD) : (dats m 0 c).arrAt 1 cfg0.N = Cert.Hist.G (V m c main_arg0) :=
  (dats m 0 c).arrAt_eq_of_cover 1 (Cert.Hist.G (V m c main_arg0)) (fun t hf => flushed_eq m c t hf) cover

/-- The kernel's run: every weakly fair execution ends with the result at the histogram of the argument, the
    argument unchanged. -/
theorem run : θ_run defs (onTc (τ := τ) (main (F := Ideal))) ⟨m, fun _ => 0, ρ⟩ fun r => ∀ c : Dev nD,
      r.2.mem ((c : Thread nD τ).loc main_v0) = Cert.Hist.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.HistValue

end
-- ==== Proof.lean ====
/-
  A per-row histogram with 100 equal-width bins: the kernel against its jnp reference, on the extended reals.

  Both programs send every entry x of the input [4096, 16384] to the same bin word bin x in [0, 99] (truncate to an
  integer, clamp into [0, 256], scale by 100 / 256, floor, truncate, clamp into [0, 99]); the two texts apply the
  same operations in the same order, so the bin words agree whatever the entry is, infinite entries included, and
  the precondition is never opened.

  The kernel walks the input tile by tile (512 rows by 4096 columns); for each of the 100 bins it counts, row by
  row, the tile's entries in that bin (a comparison read as 0 or 1, summed along the row), lays the 100 columns of
  counts side by side, and adds the tile's counts into an accumulator that is reset at the first tile of a row of
  tiles and copied to the result after the fourth. The reference numbers the (row, bin) pairs 100 · row + bin and
  adds a 1 into the pair's segment for every entry. Entry (R, b) of either result is the number of columns C with
  bin (x (R, C)) = b: a sum of zeros and ones, regrouped by commutativity and associativity of + alone.

  Modules: HistSpec (bin, the histogram G), KernelCols (a tile's counts), KernelPieces (one point's update),
  KernelAcc (the accumulator along a row of tiles), KernelValue (the result array is G of the input),
  RefWords and RefHist (the reference's result is G of the input).
-/
import proofs.«119066_j21311627723520_1_alg».proof.Defs
import proofs.«119066_j21311627723520_1_alg».proof.Proof.Gen.Kernel
import proofs.«119066_j21311627723520_1_alg».proof.Proof.Gen.Kernel.Skeleton
import proofs.«119066_j21311627723520_1_alg».proof.Proof.Gen.Kernel.Launch
import proofs.«119066_j21311627723520_1_alg».proof.Proof.Gen.Kernel.Points
import proofs.«119066_j21311627723520_1_alg».proof.Proof.Gen.Kernel.Frame
import proofs.«119066_j21311627723520_1_alg».proof.Proof.Gen.KernelIdeal
import proofs.«119066_j21311627723520_1_alg».proof.Proof.Gen.KernelIdeal.Skeleton
import proofs.«119066_j21311627723520_1_alg».proof.Proof.Gen.KernelIdeal.Launch
import proofs.«119066_j21311627723520_1_alg».proof.Proof.Gen.KernelIdeal.Points
import proofs.«119066_j21311627723520_1_alg».proof.Proof.Gen.KernelIdeal.Frame
import proofs.«119066_j21311627723520_1_alg».proof.Proof.Gen.ReferenceIdeal
import proofs.«119066_j21311627723520_1_alg».proof.Proof.Gen.Pre_finite_inputs
import proofs.«119066_j21311627723520_1_alg».proof.Proof.Gen.KernelIdeal.Value
import proofs.«119066_j21311627723520_1_alg».proof.Proof.RefRunP
import proofs.«119066_j21311627723520_1_alg».proof.Proof.RefReadP
import proofs.«119066_j21311627723520_1_alg».proof.Proof.RefHist
import proofs.«119066_j21311627723520_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with the result dropped, is its frame. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the histogram of the (shared) argument array. -/
theorem algebraic : Cert.algebraic_KernelIdeal_ReferenceIdeal := by
  intro m ρ m' ρ' _ hagree
  refine ⟨fun c => Cert.Hist.G (m ((c.tc : Thread Cert.KernelIdeal.nD Cert.KernelIdeal.τ).loc Cert.KernelIdeal.main_arg0)),
    Cert.KernelIdeal.HistValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v23_eq, Cert.ReferenceIdeal.RefValue.ref_is_hist, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
